-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S5000x128 : Shape := ⟨2, ![5000, 128]⟩

abbrev nBuf : Space → Nat
  | .hbm => 31
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  The node update of a message-passing layer, on the extended reals.

  A node has a feature row `xr` and a row `ar` of aggregated messages, both of width 128. The update is a two-layer
  perceptron of their sum: hidden unit `k` is `max (Σ_l (xr l + ar l) · w1 l k + b1 k) 0`, and output `q` is
  `Σ_k hidden k · w2 k q + b2 q`. The zero of the rectifier is kept as the word it is written with.

  The point of stating it by rows: output row `n` depends on row `n` of the features and of the aggregate and on
  nothing else of those two arrays, so computing the rows block by block gives the same array as computing them all
  at once. `update` is the whole [100000, 128] array, row `i 0`, column `i 1`.
-/
import Idealize.ShloMosaic.PureOps.Ideal
import Idealize.ShloMosaic.Lib.ValueIdx

noncomputable section

namespace Cert.NodeUpdate

open Idealize.ShloMosaic Idealize.ShloMosaic.ValueIdx

/-- Hidden unit `k` of one node: the rectified affine image of the node's summed row. -/
def hiddenRow (xr ar : Fin 128 → EReal) (w1 : Fin 128 → Fin 128 → EReal) (b1 : Fin 128 → EReal) (k : Fin 128) : EReal :=
  max ((∑ l : Fin 128, (xr l + ar l) * w1 l k) + b1 k) (Ideal.ofBits .f32 0x00000000#32)

/-- Output `q` of one node: the affine image of its hidden row. -/
def outRow (xr ar : Fin 128 → EReal) (w1 : Fin 128 → Fin 128 → EReal) (b1 : Fin 128 → EReal)
    (w2 : Fin 128 → Fin 128 → EReal) (b2 : Fin 128 → EReal) (q : Fin 128) : EReal :=
  (∑ k : Fin 128, hiddenRow xr ar w1 b1 k * w2 k q) + b2 q

/-- The output is a function of the ENTRIES of its rows, matrices and vectors: data that agree entry by entry give
    the same output. In particular it sees only one row of the features and one of the aggregate. -/
theorem outRow_congr {xr xr' ar ar' : Fin 128 → EReal} {w1 w1' : Fin 128 → Fin 128 → EReal} {b1 b1' : Fin 128 → EReal}
    {w2 w2' : Fin 128 → Fin 128 → EReal} {b2 b2' : Fin 128 → EReal} {q q' : Fin 128}
    (hx : ∀ l, xr l = xr' l) (ha : ∀ l, ar l = ar' l) (hw1 : ∀ l k, w1 l k = w1' l k) (hb1 : ∀ k, b1 k = b1' k)
    (hw2 : ∀ k r, w2 k r = w2' k r) (hb2 : ∀ r, b2 r = b2' r) (hq : q = q') :
    outRow xr ar w1 b1 w2 b2 q = outRow xr' ar' w1' b1' w2' b2' q' := by
  obtain rfl : xr = xr' := funext hx
  obtain rfl : ar = ar' := funext ha
  obtain rfl : w1 = w1' := funext fun l => funext (hw1 l)
  obtain rfl : b1 = b1' := funext hb1
  obtain rfl : w2 = w2' := funext fun k => funext (hw2 k)
  obtain rfl : b2 = b2' := funext hb2
  rw [hq]

/-- The updated node array: entry `(n, q)` is output `q` of node `n`, from row `n` of the features `X` and of the
    aggregate `A`, the two weight matrices and the two bias vectors. -/
def update (X A : FVec Ideal ⟨2, ![100000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32) (i : (⟨2, ![100000, 128]⟩ : Shape).Idx) : EReal :=
  outRow (fun l => X (ix2 (i 0) l)) (fun l => A (ix2 (i 0) l)) (fun l k => W1 (ix2 l k)) (fun k => B1 (ix1 k))
    (fun k q => W2 (ix2 k q)) (fun q => B2 (ix1 q)) (i 1)

/-- The updated array at node `n`, column `q`. -/
theorem update_ix2 (X A : FVec Ideal ⟨2, ![100000, 128]⟩ .f32) (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32) (n : Fin 100000) (q : Fin 128) :
    update X A W1 B1 W2 B2 (ix2 n q)
      = outRow (fun l => X (ix2 n l)) (fun l => A (ix2 n l)) (fun l k => W1 (ix2 l k)) (fun k => B1 (ix1 k))
          (fun k r => W2 (ix2 k r)) (fun r => B2 (ix1 r)) q := rfl

end Cert.NodeUpdate

end
-- ==== Proof.ReferenceUpdate.lean ====
/-
  The reference's result is the node update of its own aggregate.

  After it has gathered, rectified and scatter-added the messages into the aggregate `A` (a [100000, 128] array that
  is left unopened here: it enters only as an array), the reference adds `A` to the features, multiplies by the first
  weight matrix, adds the first bias broadcast down the rows, rectifies, multiplies by the second weight matrix and
  adds the second bias. Read at an entry `i`, operation by operation: each product is a sum over the contracted
  coordinate `k : Fin 128` of the left operand at `(i 0, k)` times the right at `(k, i 1)`, and each broadcast bias is
  the bias vector at `i 1`. That is `NodeUpdate.update` at `i`, term for term.
-/
import proofs.«133633_j74500502716622_2_alg».proof.Proof.Gen.ReferenceIdeal.Read
import proofs.«133633_j74500502716622_2_alg».proof.Proof.NodeUpdate

noncomputable section

namespace Cert.NodeUpdate.Reference

open Cert.ReferenceIdeal Cert.ReferenceIdeal.Read
open Idealize.ShloMosaic Idealize.ShloMosaic.ValueIdx Cert.NodeUpdate

/-- The reference's aggregate: the scatter-added messages, as a function of the features, the edge list and the edge
    attributes. -/
abbrev aggregate (x0 : (⟨S100000x128, .f32⟩ : BufTy).Contents (Elt Ideal)) (x1 : (⟨S2x1600000, .i32⟩ : BufTy).Contents (Elt Ideal))
    (x2 : (⟨S1600000x128, .f32⟩ : BufTy).Contents (Elt Ideal)) : (⟨S100000x128, .f32⟩ : BufTy).Contents (Elt Ideal) :=
  val_main_v15 (F := Ideal) x0 x1 x2

/-- The reference's result array is the update of the features and its aggregate. -/
theorem result_eq_update (x0 : (⟨S100000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v25 (F := Ideal) x0 x1 x2 x3 x4 x5 x6 = update x0 (aggregate x0 x1 x2) x3 x4 x5 x6 := by
  funext i
  obtain ⟨n, q, rfl⟩ : ∃ (n : Fin 100000) (q : Fin 128), i = ix2 n q := ⟨i 0, i 1, eq_ix2 i⟩
  -- the second product's operands at `(n, q)`: row `n` of the hidden array, column `q` of the second weights
  have e1 : ∀ k : Fin 128, lidx_main_v22 (ix2 n q) k = ix2 n k := fun k =>
    funext fun a => Fin.ext (by match a with | ⟨0, _⟩ => rfl | ⟨1, _⟩ => rfl)
  have e2 : ∀ k : Fin 128, ridx_main_v22 (ix2 n q) k = ix2 k q := fun k =>
    funext fun a => Fin.ext (by match a with | ⟨0, _⟩ => rfl | ⟨1, _⟩ => rfl)
  -- the first product's operands at `(n, k)`: row `n` of the summed features, column `k` of the first weights
  have e3 : ∀ k l : Fin 128, lidx_main_v17 (ix2 n k) l = ix2 n l := fun k l =>
    funext fun a => Fin.ext (by match a with | ⟨0, _⟩ => rfl | ⟨1, _⟩ => rfl)
  have e4 : ∀ k l : Fin 128, ridx_main_v17 (ix2 n k) l = ix2 l k := fun k l =>
    funext fun a => Fin.ext (by match a with | ⟨0, _⟩ => rfl | ⟨1, _⟩ => rfl)
  -- a bias broadcast down the rows, read at an entry, is the bias at the entry's column
  have e5 : idx_main_v23 (idx_main_v24 (ix2 n q)) = ix1 q :=
    funext fun a => Fin.ext (by match a with | ⟨0, _⟩ => rfl)
  have e6 : ∀ k : Fin 128, idx_main_v18 (idx_main_v19 (ix2 n k)) = ix1 k := fun k =>
    funext fun a => Fin.ext (by match a with | ⟨0, _⟩ => rfl)
  rw [update_ix2, val_main_v25_apply, val_main_v22_apply, val_main_v24_apply, val_main_v23_apply, e5]
  unfold outRow
  refine congrArg₂ (· + ·) (Finset.sum_congr rfl fun k _ => ?_) rfl
  rw [e1 k, e2 k, val_main_v21_apply, val_main_v20_apply, val_main_v17_apply, val_main_v19_apply, val_main_v18_apply, e6 k,
    val_main_call1_v0_apply, val_main_call1_cst_apply]
  unfold hiddenRow
  refine congrArg₂ (· * ·) (congrArg₂ max (congrArg₂ (· + ·) (Finset.sum_congr rfl fun l _ => ?_) rfl) rfl) rfl
  rw [e3 k l, e4 k l, val_main_v16_apply]
  rfl

end Cert.NodeUpdate.Reference

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.BlockPayload.lean ====
/-
  What the kernel body computes from its loaded blocks, entry by entry, on the extended reals.

  The body adds its two [5000, 128] blocks, multiplies by the first weight matrix into a zero accumulator, adds the
  first bias row (a [1, 128] block broadcast down the rows), rectifies, multiplies by the second weight matrix into a
  zero accumulator and adds the second bias row. The narrowings to bf16 before each product are the identity on the
  extended reals. So entry `(p, q)` of the stored value is `NodeUpdate.outRow` of row `p` of the two blocks: each
  matrix product read at an entry is the sum over the contracted coordinate of the products of the operands'
  entries, and a broadcast bias row read at `(p, k)` is its entry `(0, k)`.
-/
import proofs.«133633_j74500502716622_2_alg».proof.Proof.Gen.KernelIdeal.Skeleton
import proofs.«133633_j74500502716622_2_alg».proof.Proof.NodeUpdate
import proofs.«133633_j74500502716622_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.NodeUpdate.Block

open Cert.KernelIdeal Cert.KernelIdeal.Gen
open Idealize.ShloMosaic Idealize.ShloMosaic.ValueIdx Cert.NodeUpdate

/-- A bias row: the [1, 128] block, cast to its own shape and broadcast down 5000 rows, read at `(p, k)` is its entry
    `(0, k)`. -/
theorem biasRow_apply (b : Vec Ideal S1x128 .f32) (p : Fin 5000) (k : Fin 128) :
    broadcastTo S5000x128 (shapeCast S1x128 b shapeCasts_S1x128_S1x128) broadcasts_S1x128_S5000x128 (ix2 p k)
      = b (ix2 (0 : Fin 1) k) := by
  rw [shapeCast_self]
  exact broadcastTo_1b_ab_apply b broadcasts_S1x128_S5000x128 p k

/-- Entry `(p, q)` of the value the body stores is output `q` of the update of row `p` of its two row blocks. -/
theorem payload_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = outRow (fun l => x0 (ix2 p l)) (fun l => x1 (ix2 p l)) (fun l k => x2 (ix2 l k)) (fun k => x3 (ix2 (0 : Fin 1) k))
          (fun k q' => x4 (ix2 k q')) (fun q' => x5 (ix2 (0 : Fin 1) q')) q := by
  unfold k0_pay1 outRow
  refine (addf_apply _ _ _).trans (congrArg₂ (· + ·) ?_ (biasRow_apply x5 p q))
  refine (DenseLayers.matmul_rowcol_zero_apply dot_S5000x128_S128x128_S5000x128_1_0_0_1_n_n_wf none _ _ p q).trans ?_
  refine Finset.sum_congr rfl fun k _ => congrArg₂ (· * ·) ?_ rfl
  unfold hiddenRow
  refine congrArg₂ max (congrArg₂ (· + ·) ?_ (biasRow_apply x3 p k)) rfl
  refine (DenseLayers.matmul_rowcol_zero_apply dot_S5000x128_S128x128_S5000x128_1_0_0_1_n_n_wf none _ _ p k).trans ?_
  refine Finset.sum_congr rfl fun l _ => congrArg₂ (· * ·) ?_ rfl
  show x0 (ix2 p l) + shapeCast S5000x128 x1 shapeCasts_S5000x128_S5000x128 (ix2 p l) = _
  rw [shapeCast_self]

/-- If row `p` of the two row blocks is row `n` of the features `X` and of the aggregate `A`, and the other four blocks
    are the weights and the bias rows, then entry `(p, q)` of what the body stores is entry `(n, q)` of the update. -/
theorem payload_eq_update (X A : FVec Ideal ⟨2, ![100000, 128]⟩ .f32) (W1 : FVec Ideal ⟨2, ![128, 128]⟩ .f32)
    (B1 : FVec Ideal ⟨1, ![128]⟩ .f32) (W2 : FVec Ideal ⟨2, ![128, 128]⟩ .f32) (B2 : FVec Ideal ⟨1, ![128]⟩ .f32)
    (x0 x1 : Vec Ideal S5000x128 .f32) (x2 : Vec Ideal S128x128 .f32) (x3 : Vec Ideal S1x128 .f32)
    (x4 : Vec Ideal S128x128 .f32) (x5 : Vec Ideal S1x128 .f32) (n : Fin 100000) (p : Fin 5000) (q : Fin 128)
    (h0 : ∀ l : Fin 128, x0 (ix2 p l) = X (ix2 n l)) (h1 : ∀ l : Fin 128, x1 (ix2 p l) = A (ix2 n l))
    (h2 : ∀ l k : Fin 128, x2 (ix2 l k) = W1 (ix2 l k)) (h3 : ∀ k : Fin 128, x3 (ix2 (0 : Fin 1) k) = B1 (ix1 k))
    (h4 : ∀ k r : Fin 128, x4 (ix2 k r) = W2 (ix2 k r)) (h5 : ∀ r : Fin 128, x5 (ix2 (0 : Fin 1) r) = B2 (ix1 r)) :
    k0_pay1 (F := Ideal) x0 x1 x2 x3 x4 x5 (ix2 p q) = update X A W1 B1 W2 B2 (ix2 n q) :=
  (payload_apply x0 x1 x2 x3 x4 x5 p q).trans
    ((outRow_congr h0 h1 h2 h3 h4 h5 rfl).trans (update_ix2 X A W1 B1 W2 B2 n q).symm)

end Cert.NodeUpdate.Block

end
-- ==== Proof.KernelUpdate.lean ====
/-
  The kernel's result array is the node update of the features and the aggregate.

  The launch has one grid axis of twenty points. At point `t` the features, the aggregate and the result are staged by
  blocks of 5000 rows — rows `5000 t … 5000 t + 4999`, all 128 columns — while the two weight matrices and the two
  bias rows are staged whole at every point. The aggregate is not an argument: the host operations before the launch
  write it (the same gather, rectify and scatter-add the reference performs, so the same term), and they write the two
  bias rows as [1, 128] reshapes of the bias vectors.

  Because the update is row-local (`NodeUpdate.outRow` sees one row of the features and of the aggregate), what point
  `t` writes back is block `t` of `NodeUpdate.update` of the whole arrays; the twenty blocks tile the [100000, 128]
  result (row `r` lies in block `r / 5000`), so after the run the result array is that update.
-/
import proofs.«133633_j74500502716622_2_alg».proof.Proof.Gen.KernelIdeal.Value
import proofs.«133633_j74500502716622_2_alg».proof.Proof.BlockPayload
import proofs.«133633_j74500502716622_2_alg».proof.Proof.ReferenceUpdate
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.NodeUpdate.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.NodeUpdate

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- Over the twenty points: the three row windows (features, aggregate, result) are at block row `t`, block column 0;
    the weights' and the bias rows' windows are at block (0, 0) throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the host operations before the launch write -/

set_option maxHeartbeats 2000000 in
/-- The aggregate window's array: the host prefix is, operation for operation, the reference's, so it leaves the
    reference's aggregate of the same three arguments. -/
theorem aggregate_window (c : Dev nD) :
    (V m c main_v15 : S100000x128.Idx → Elt Ideal .f32)
      = Reference.aggregate (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp <;> rfl

/-- The first bias row's array: the bias vector reshaped to [1, 128]. -/
theorem bias1_window (c : Dev nD) :
    (V m c main_v16 : S1x128.Idx → Elt Ideal .f32)
      = shapeCast S1x128 (m ((c : Thread nD τ).loc main_arg4) : S128.Idx → Elt Ideal .f32) Gen.shapeCasts_S128_S1x128 := by
  dsimp only [V]
  simp only [hostOps0, hostOps0_1, hostOps0_2, List.flatten_cons, List.flatten_nil, List.append_nil, List.cons_append,
    List.nil_append]
  after_results
  rfl

/-- The second bias row's array: the bias vector reshaped to [1, 128]. -/
theorem bias2_window (c : Dev nD) :
    (V m c main_v17 : S1x128.Idx → Elt Ideal .f32)
      = shapeCast S1x128 (m ((c : Thread nD τ).loc main_arg6) : S128.Idx → Elt Ideal .f32) Gen.shapeCasts_S128_S1x128 := by
  dsimp only [V]
  simp only [hostOps0, hostOps0_1, hostOps0_2, List.flatten_cons, List.flatten_nil, List.append_nil, List.cons_append,
    List.nil_append]
  after_results
  rfl

/-! ## What each window shows of its array

Pure layout, for an arbitrary array `G`: where an entry of a window's block sits in the array. Nothing here looks
at what the array holds. -/

/-- The features' window at point `t` shows rows `5000 t … 5000 t + 4999` of its array, whatever the array holds. -/
theorem features_window_read (t : Fin cfg0.N) (G : S100000x128.Idx → Elt Ideal .f32) (x : S5000x128.Idx) (k : S100000x128.Idx)
    (hk0 : (k 0).val = t.val * 5000 + (x 0).val) (hk1 : (k 1).val = (x 1).val) :
    (((cfg0.win 0).blk t).view.read (Elt Ideal) G : Vec Ideal S5000x128 .f32) x = G k := by
  obtain ⟨h0, h1, -⟩ := block_indices t
  have e : ((cfg0.win 0).blk t).view.emb x = k := by
    funext a
    apply Fin.ext
    match a with
    | ⟨0, _⟩ => show win0_0.index t 0 * 5000 + 1 * (x 0).val = (k 0).val; rw [h0, hk0]; omega
    | ⟨1, _⟩ => show win0_0.index t 1 * 128 + 1 * (x 1).val = (k 1).val; rw [h1, hk1]; omega
  rw [View.read_apply, e]
  rfl

/-- The aggregate's window at point `t` shows rows `5000 t … 5000 t + 4999` of its array, whatever the array holds. -/
theorem aggregate_window_read (t : Fin cfg0.N) (G : S100000x128.Idx → Elt Ideal .f32) (x : S5000x128.Idx) (k : S100000x128.Idx)
    (hk0 : (k 0).val = t.val * 5000 + (x 0).val) (hk1 : (k 1).val = (x 1).val) :
    (((cfg0.win 1).blk t).view.read (Elt Ideal) G : Vec Ideal S5000x128 .f32) x = G k := by
  obtain ⟨-, -, h0, h1, -⟩ := block_indices t
  have e : ((cfg0.win 1).blk t).view.emb x = k := by
    funext a
    apply Fin.ext
    match a with
    | ⟨0, _⟩ => show win0_1.index t 0 * 5000 + 1 * (x 0).val = (k 0).val; rw [h0, hk0]; omega
    | ⟨1, _⟩ => show win0_1.index t 1 * 128 + 1 * (x 1).val = (k 1).val; rw [h1, hk1]; omega
  rw [View.read_apply, e]
  rfl

/-- The first weight matrix's window shows the whole matrix at every point. -/
theorem weights1_window_read (t : Fin cfg0.N) (G : S128x128.Idx → Elt Ideal .f32) (x : S128x128.Idx) :
    (((cfg0.win 2).blk t).view.read (Elt Ideal) G : Vec Ideal S128x128 .f32) x = G x := by
  obtain ⟨-, -, -, -, h0, h1, -⟩ := block_indices t
  have e : ((cfg0.win 2).blk t).view.emb x = x := by
    funext a
    apply Fin.ext
    match a with
    | ⟨0, _⟩ => show win0_2.index t 0 * 128 + 1 * (x 0).val = (x 0).val; rw [h0]; omega
    | ⟨1, _⟩ => show win0_2.index t 1 * 128 + 1 * (x 1).val = (x 1).val; rw [h1]; omega
  rw [View.read_apply, e]
  rfl

/-- The first bias row's window shows the whole row at every point. -/
theorem bias1_window_read (t : Fin cfg0.N) (G : S1x128.Idx → Elt Ideal .f32) (x : S1x128.Idx) :
    (((cfg0.win 3).blk t).view.read (Elt Ideal) G : Vec Ideal S1x128 .f32) x = G x := by
  obtain ⟨-, -, -, -, -, -, h0, h1, -⟩ := block_indices t
  have e : ((cfg0.win 3).blk t).view.emb x = x := by
    funext a
    apply Fin.ext
    match a with
    | ⟨0, _⟩ => show win0_3.index t 0 * 1 + 1 * (x 0).val = (x 0).val; rw [h0]; omega
    | ⟨1, _⟩ => show win0_3.index t 1 * 128 + 1 * (x 1).val = (x 1).val; rw [h1]; omega
  rw [View.read_apply, e]
  rfl

/-- The second weight matrix's window shows the whole matrix at every point. -/
theorem weights2_window_read (t : Fin cfg0.N) (G : S128x128.Idx → Elt Ideal .f32) (x : S128x128.Idx) :
    (((cfg0.win 4).blk t).view.read (Elt Ideal) G : Vec Ideal S128x128 .f32) x = G x := by
  obtain ⟨-, -, -, -, -, -, -, -, h0, h1, -⟩ := block_indices t
  have e : ((cfg0.win 4).blk t).view.emb x = x := by
    funext a
    apply Fin.ext
    match a with
    | ⟨0, _⟩ => show win0_4.index t 0 * 128 + 1 * (x 0).val = (x 0).val; rw [h0]; omega
    | ⟨1, _⟩ => show win0_4.index t 1 * 128 + 1 * (x 1).val = (x 1).val; rw [h1]; omega
  rw [View.read_apply, e]
  rfl

/-- The second bias row's window shows the whole row at every point. -/
theorem bias2_window_read (t : Fin cfg0.N) (G : S1x128.Idx → Elt Ideal .f32) (x : S1x128.Idx) :
    (((cfg0.win 5).blk t).view.read (Elt Ideal) G : Vec Ideal S1x128 .f32) x = G x := by
  obtain ⟨-, -, -, -, -, -, -, -, -, -, h0, h1, -⟩ := block_indices t
  have e : ((cfg0.win 5).blk t).view.emb x = x := by
    funext a
    apply Fin.ext
    match a with
    | ⟨0, _⟩ => show win0_5.index t 0 * 1 + 1 * (x 0).val = (x 0).val; rw [h0]; omega
    | ⟨1, _⟩ => show win0_5.index t 1 * 128 + 1 * (x 1).val = (x 1).val; rw [h1]; omega
  rw [View.read_apply, e]
  rfl

/-! ## Each input block, read off the array the launch finds -/

/-- Row `p` of point `t`'s block of the features is row `5000 t + p` of the features. -/
theorem features_block (c : Dev nD) (t : Fin cfg0.N) (x : S5000x128.Idx) (k : S100000x128.Idx)
    (hk0 : (k 0).val = t.val * 5000 + (x 0).val) (hk1 : (k 1).val = (x 1).val) :
    (iblk m c 0 t : Vec Ideal S5000x128 .f32) x = (V m c main_arg0 : S100000x128.Idx → Elt Ideal .f32) k := by
  unfold iblk
  exact features_window_read t (V m c main_arg0) x k hk0 hk1

/-- Row `p` of point `t`'s block of the aggregate is row `5000 t + p` of the aggregate. -/
theorem aggregate_block (c : Dev nD) (t : Fin cfg0.N) (x : S5000x128.Idx) (k : S100000x128.Idx)
    (hk0 : (k 0).val = t.val * 5000 + (x 0).val) (hk1 : (k 1).val = (x 1).val) :
    (iblk m c 1 t : Vec Ideal S5000x128 .f32) x = (V m c main_v15 : S100000x128.Idx → Elt Ideal .f32) k := by
  unfold iblk
  exact aggregate_window_read t (V m c main_v15) x k hk0 hk1

/-- The first weight matrix is staged whole at every point. -/
theorem weights1_block (c : Dev nD) (t : Fin cfg0.N) (x : S128x128.Idx) :
    (iblk m c 2 t : Vec Ideal S128x128 .f32) x = (V m c main_arg3 : S128x128.Idx → Elt Ideal .f32) x := by
  unfold iblk
  exact weights1_window_read t (V m c main_arg3) x

/-- The first bias row is staged whole at every point. -/
theorem bias1_block (c : Dev nD) (t : Fin cfg0.N) (x : S1x128.Idx) :
    (iblk m c 3 t : Vec Ideal S1x128 .f32) x = (V m c main_v16 : S1x128.Idx → Elt Ideal .f32) x := by
  unfold iblk
  exact bias1_window_read t (V m c main_v16) x

/-- The second weight matrix is staged whole at every point. -/
theorem weights2_block (c : Dev nD) (t : Fin cfg0.N) (x : S128x128.Idx) :
    (iblk m c 4 t : Vec Ideal S128x128 .f32) x = (V m c main_arg5 : S128x128.Idx → Elt Ideal .f32) x := by
  unfold iblk
  exact weights2_window_read t (V m c main_arg5) x

/-- The second bias row is staged whole at every point. -/
theorem bias2_block (c : Dev nD) (t : Fin cfg0.N) (x : S1x128.Idx) :
    (iblk m c 5 t : Vec Ideal S1x128 .f32) x = (V m c main_v17 : S1x128.Idx → Elt Ideal .f32) x := by
  unfold iblk
  exact bias2_window_read t (V m c main_v17) x

/-! ## What a point writes back, and the array after the run -/

/-- The update of the arrays as the launch finds them: the features, the aggregate window's array, the weights, and
    the bias vectors. -/
abbrev result (c : Dev nD) : S100000x128.Idx → Elt Ideal .f32 :=
  update (V m c main_arg0) (V m c main_v15) (V m c main_arg3) (m ((c : Thread nD τ).loc main_arg4))
    (V m c main_arg5) (m ((c : Thread nD τ).loc main_arg6))

/-- What point `t` writes back is block `t` of the update: entry `(p, q)` of the stored value is the update's entry
    `(5000 t + p, q)`, the update being row-local. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S128x128) hz, View.ld_unit_zero (S := S1x128) hz]
  obtain ⟨-, -, -, -, -, -, -, -, -, -, -, -, h60, h61⟩ := block_indices t
  have ht : t.val < 20 := by have h := t.isLt; have hN : cfg0.N = 20 := N_0; omega
  refine funext ?_
  show ∀ y : S5000x128.Idx, k0_pay1 (F := Ideal) (iblk m c 0 t) (iblk m c 1 t) (iblk m c 2 t) (iblk m c 3 t) (iblk m c 4 t) (iblk m c 5 t) y
      = result m c (((cfg0.win 6).blk t).view.emb y)
  intro y
  obtain ⟨p, q, rfl⟩ : ∃ (p : Fin 5000) (q : Fin 128), y = ix2 p q := ⟨y 0, y 1, eq_ix2 y⟩
  -- the row of the whole arrays that row `p` of block `t` is
  obtain ⟨n, hn⟩ : ∃ n : Fin 100000, n.val = t.val * 5000 + p.val :=
    ⟨⟨t.val * 5000 + p.val, by have := p.isLt; omega⟩, rfl⟩
  have hemb : ((cfg0.win 6).blk t).view.emb (ix2 p q) = (ix2 n q : S100000x128.Idx) :=
    funext fun a => Fin.ext (by
      match a with
      | ⟨0, _⟩ => show win0_6.index t 0 * 5000 + 1 * p.val = n.val; rw [h60, hn]; omega
      | ⟨1, _⟩ => show win0_6.index t 1 * 128 + 1 * q.val = q.val; rw [h61]; omega)
  rw [hemb]
  have h0 : ∀ l : Fin 128, (iblk m c 0 t : Vec Ideal S5000x128 .f32) (ix2 p l)
      = (V m c main_arg0 : S100000x128.Idx → Elt Ideal .f32) (ix2 n l) :=
    fun l => features_block m c t (ix2 p l) (ix2 n l) hn rfl
  have h1 : ∀ l : Fin 128, (iblk m c 1 t : Vec Ideal S5000x128 .f32) (ix2 p l)
      = (V m c main_v15 : S100000x128.Idx → Elt Ideal .f32) (ix2 n l) :=
    fun l => aggregate_block m c t (ix2 p l) (ix2 n l) hn rfl
  have h2 : ∀ l k : Fin 128, (iblk m c 2 t : Vec Ideal S128x128 .f32) (ix2 l k)
      = (V m c main_arg3 : S128x128.Idx → Elt Ideal .f32) (ix2 l k) :=
    fun l k => weights1_block m c t (ix2 l k)
  have h3 : ∀ k : Fin 128, (iblk m c 3 t : Vec Ideal S1x128 .f32) (ix2 (0 : Fin 1) k)
      = (m ((c : Thread nD τ).loc main_arg4) : S128.Idx → Elt Ideal .f32) (ix1 k) := fun k => by
    rw [bias1_block m c t (ix2 (0 : Fin 1) k), bias1_window m c]
    exact shapeCast_a_1a_apply (m ((c : Thread nD τ).loc main_arg4) : S128.Idx → Elt Ideal .f32) Gen.shapeCasts_S128_S1x128 0 k
  have h4 : ∀ k r : Fin 128, (iblk m c 4 t : Vec Ideal S128x128 .f32) (ix2 k r)
      = (V m c main_arg5 : S128x128.Idx → Elt Ideal .f32) (ix2 k r) :=
    fun k r => weights2_block m c t (ix2 k r)
  have h5 : ∀ r : Fin 128, (iblk m c 5 t : Vec Ideal S1x128 .f32) (ix2 (0 : Fin 1) r)
      = (m ((c : Thread nD τ).loc main_arg6) : S128.Idx → Elt Ideal .f32) (ix1 r) := fun r => by
    rw [bias2_block m c t (ix2 (0 : Fin 1) r), bias2_window m c]
    exact shapeCast_a_1a_apply (m ((c : Thread nD τ).loc main_arg6) : S128.Idx → Elt Ideal .f32) Gen.shapeCasts_S128_S1x128 0 r
  exact Block.payload_eq_update (V m c main_arg0) (V m c main_v15) (V m c main_arg3) (m ((c : Thread nD τ).loc main_arg4))
    (V m c main_arg5) (m ((c : Thread nD τ).loc main_arg6))
    (iblk m c 0 t) (iblk m c 1 t) (iblk m c 2 t) (iblk m c 3 t) (iblk m c 4 t) (iblk m c 5 t) n p q h0 h1 h2 h3 h4 h5

/-- An index of the result is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- The twenty blocks tile the result: row `r` lies in block `r / 5000`. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_block]
  obtain ⟨-, -, -, -, -, -, -, -, -, -, -, -, h60, h61⟩ := block_indices ⟨(i 0).val / 5000, by rw [hN]; omega⟩
  intro a
  match a with
  | ⟨0, _⟩ =>
    show win0_6.index _ 0 * 5000 ≤ (i 0).val ∧ (i 0).val < win0_6.index _ 0 * 5000 + 5000
    rw [h60]
    show (i 0).val / 5000 * 5000 ≤ (i 0).val ∧ (i 0).val < (i 0).val / 5000 * 5000 + 5000
    omega
  | ⟨1, _⟩ =>
    show win0_6.index _ 1 * 128 ≤ (i 1).val ∧ (i 1).val < win0_6.index _ 1 * 128 + 128
    rw [h61]
    omega

/-- After the run the result array is the update of the arrays the launch found. -/
theorem final (c : Dev nD) : (dats m 0 c).arrAt 6 cfg0.N = result m c :=
  (dats m 0 c).arrAt_eq_of_cover 6 (result m c) (fun t _ => flushed_eq m c t) covered

/-- The result in terms of the arguments: the update of the features, the reference's aggregate of the features, edge
    list and edge attributes, the two weight matrices and the two bias vectors. -/
abbrev resultOfArgs (c : Dev nD) : S100000x128.Idx → Elt Ideal .f32 :=
  update (m ((c : Thread nD τ).loc main_arg0))
    (Reference.aggregate (m ((c : Thread nD τ).loc main_arg0)) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

theorem result_eq (c : Dev nD) : result m c = resultOfArgs m c := by
  unfold result resultOfArgs
  rw [V_main_arg0, V_main_arg3, V_main_arg5, aggregate_window]

/-- The run, read: every weakly fair execution ends with the result array at the update of the arguments and the
    arguments unchanged. -/
theorem run : θ_run defs (onTc (τ := τ) (main (F := Ideal))) ⟨m, fun _ => 0, ρ⟩ fun r => ∀ c : Dev nD,
      r.2.mem ((c : Thread nD τ).loc main_v18) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq m c)), (h c).2⟩)
    (run_blocks m ρ)

end Cert.NodeUpdate.Kernel

end
-- ==== Proof.lean ====
/- The proof of `Cert.Claim` (proofs.«133633_j74500502716622_2_alg».proof.Defs): a message-passing layer's node update, tiled over blocks of rows, against the
   same update computed at once.

   Both programs first form the aggregate on the host — each edge's message is the rectified sum of its source node's
   features and the edge's attributes, and the messages are scatter-added at their target nodes — by the same
   operations in the same order, so the aggregate is one term of the arguments on both sides and is never opened.
   The update itself, `relu ((x + agg) · w1 + b1) · w2 + b2`, the kernel computes twenty blocks of 5000 rows at a time
   and the reference over all 100000 rows at once. On the extended reals a narrowing to bf16 is the identity and a
   matrix product is the plain sum over the contracted coordinate, so both are `NodeUpdate.update` entry by entry
   (Proof/ReferenceUpdate.lean for the reference, Proof/BlockPayload.lean and Proof/KernelUpdate.lean for the kernel);
   the only law used is that an output row depends on one row of `x` and of the aggregate, which is why the tiling
   does not matter. No rearrangement of sums or products is made, so the inputs' finiteness is not used.

   The three frames are the generated frame runs (the reference's its generated run with the result dropped), and the
   idealization rewrote nothing, so `preserves` is `True`. -/
import proofs.«133633_j74500502716622_2_alg».proof.Defs
import proofs.«133633_j74500502716622_2_alg».proof.Proof.Gen.Kernel
import proofs.«133633_j74500502716622_2_alg».proof.Proof.Gen.Kernel.Skeleton
import proofs.«133633_j74500502716622_2_alg».proof.Proof.Gen.Kernel.Launch
import proofs.«133633_j74500502716622_2_alg».proof.Proof.Gen.Kernel.Points
import proofs.«133633_j74500502716622_2_alg».proof.Proof.Gen.Kernel.Frame
import proofs.«133633_j74500502716622_2_alg».proof.Proof.Gen.KernelIdeal
import proofs.«133633_j74500502716622_2_alg».proof.Proof.Gen.KernelIdeal.Skeleton
import proofs.«133633_j74500502716622_2_alg».proof.Proof.Gen.KernelIdeal.Launch
import proofs.«133633_j74500502716622_2_alg».proof.Proof.Gen.KernelIdeal.Points
import proofs.«133633_j74500502716622_2_alg».proof.Proof.Gen.KernelIdeal.Frame
import proofs.«133633_j74500502716622_2_alg».proof.Proof.Gen.ReferenceIdeal
import proofs.«133633_j74500502716622_2_alg».proof.Proof.Gen.Pre_finite_inputs
import proofs.«133633_j74500502716622_2_alg».proof.Proof.Gen.KernelIdeal.Value
import proofs.«133633_j74500502716622_2_alg».proof.Proof.Gen.ReferenceIdeal.Run
import proofs.«133633_j74500502716622_2_alg».proof.Proof.Gen.ReferenceIdeal.Read
import proofs.«133633_j74500502716622_2_alg».proof.Proof.NodeUpdate
import proofs.«133633_j74500502716622_2_alg».proof.Proof.ReferenceUpdate
import proofs.«133633_j74500502716622_2_alg».proof.Proof.BlockPayload
import proofs.«133633_j74500502716622_2_alg».proof.Proof.KernelUpdate
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the seven arguments, the kernel's result array and the
    reference's are both the node update of the features, the aggregate of the features, edge list and edge
    attributes, the two weight matrices and the two bias vectors. -/
theorem algebraic : Cert.algebraic_KernelIdeal_ReferenceIdeal := by
  intro m ρ m' ρ' _ hagree
  refine ⟨fun c => Cert.NodeUpdate.Kernel.resultOfArgs m c, Cert.NodeUpdate.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.NodeUpdate.Reference.result_eq_update]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
